-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x625000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S4000x128 : Shape := ⟨2, ![4000, 128]⟩
abbrev S1x128 : Shape := ⟨2, ![1, 128]⟩

abbrev nBuf : Space → Nat
  | .hbm => 26
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x625000, .i32⟩
  | .hbm, ⟨7, _⟩ => ⟨S625000, .i32⟩
  | .hbm, ⟨8, _⟩ => ⟨S1x625000, .i32⟩
  | .hbm, ⟨9, _⟩ => ⟨S625000, .i32⟩
  | .hbm, ⟨10, _⟩ => ⟨S_, .i32⟩
  | .hbm, ⟨11, _⟩ => ⟨S625000, .i32⟩
  | .hbm, ⟨12, _⟩ => ⟨S625000, .i1⟩
  | .hbm, ⟨13, _⟩ => ⟨S_, .i32⟩
  | .hbm, ⟨14, _⟩ => ⟨S625000, .i32⟩
  | .hbm, ⟨15, _⟩ => ⟨S625000, .i32⟩
  | .hbm, ⟨16, _⟩ => ⟨S625000, .i32⟩
  | .hbm, ⟨17, _⟩ => ⟨S625000x1, .i32⟩
  | .hbm, ⟨18, _⟩ => ⟨S625000x128, .f32⟩
  | .hbm, ⟨19, _⟩ => ⟨S_, .f32⟩
  | .hbm, ⟨20, _⟩ => ⟨S100000x128, .f32⟩
  | .hbm, ⟨21, _⟩ => ⟨S625000x1, .i32⟩
  | .hbm, ⟨22, _⟩ => ⟨S100000x128, .f32⟩
  | .hbm, ⟨23, _⟩ => ⟨S128x128, .f32⟩
  | .hbm, ⟨24, _⟩ => ⟨S128x128, .f32⟩
  | .hbm, ⟨25, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S4000x128, .f32⟩
  | .local _ .vmem, ⟨9, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  transposes_S128x128_S128x128_1_0 : S128x128.Transposes [1, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  shapeCasts_S1x128_S1x128 : S1x128.ShapeCasts S1x128
  broadcasts_S1x128_S4000x128 : S1x128.Broadcasts S4000x128
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v13) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S1x128 : Shape := ⟨2, ![1, 128]⟩

abbrev nBuf : Space → Nat
  | .hbm => 34
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x625000, .i32⟩
  | .hbm, ⟨7, _⟩ => ⟨S625000, .i32⟩
  | .hbm, ⟨8, _⟩ => ⟨S1x625000, .i32⟩
  | .hbm, ⟨9, _⟩ => ⟨S625000, .i32⟩
  | .hbm, ⟨10, _⟩ => ⟨S_, .i32⟩
  | .hbm, ⟨11, _⟩ => ⟨S625000, .i32⟩
  | .hbm, ⟨12, _⟩ => ⟨S625000, .i1⟩
  | .hbm, ⟨13, _⟩ => ⟨S_, .i32⟩
  | .hbm, ⟨14, _⟩ => ⟨S625000, .i32⟩
  | .hbm, ⟨15, _⟩ => ⟨S625000, .i32⟩
  | .hbm, ⟨16, _⟩ => ⟨S625000, .i32⟩
  | .hbm, ⟨17, _⟩ => ⟨S625000x1, .i32⟩
  | .hbm, ⟨18, _⟩ => ⟨S625000x128, .f32⟩
  | .hbm, ⟨19, _⟩ => ⟨S_, .f32⟩
  | .hbm, ⟨20, _⟩ => ⟨S100000x128, .f32⟩
  | .hbm, ⟨21, _⟩ => ⟨S625000x1, .i32⟩
  | .hbm, ⟨22, _⟩ => ⟨S100000x128, .f32⟩
  | .hbm, ⟨23, _⟩ => ⟨S128x128, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S128x128, .f32⟩
  | .hbm, ⟨29, _⟩ => ⟨S100000x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S100000x128_S128x128_S100000x128_1_0_0_1_n_n_wf : DotDims.WF S100000x128 S128x128 S100000x128 [1] [0] [0] [1] [] []

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LayerSpec.lean ====
/-
  The layer as ONE function of whole arrays.

  With `nb` the per-node sum of neighbour features ([100000, 128]), `x` the node features ([100000, 128]),
  `wn`, `wr` the two weight matrices ALREADY transposed to [in, out] ([128, 128]) and `bn`, `br` the two
  biases ([128]), the layer's output at row `r`, column `j` is

      (Σ_k nb[r, k] · wn[k, j]  +  Σ_k x[r, k] · wr[k, j])  +  (bn[j] + br[j])

  over the extended reals. The other grouping of the same four summands,
  ((Σ nb·wn + bn[j]) + Σ x·wr) + br[j], is equal to it by commutativity and associativity of
  addition alone (`regroup`): no distributivity and no cancelling is involved, so the equality holds at
  the infinities as well and nothing has to be assumed finite.
-/
import Idealize.ShloMosaic.PureOps.Ideal
import Idealize.ShloMosaic.Lib.ValueIdx

noncomputable section

open scoped BigOperators

namespace Cert.Layer

open Idealize.ShloMosaic Idealize.ShloMosaic.ValueIdx

/-- Node-by-feature arrays, square weight matrices, bias vectors. -/
abbrev SNodes : Shape := ⟨2, ![100000, 128]⟩
abbrev SWeight : Shape := ⟨2, ![128, 128]⟩
abbrev SBias : Shape := ⟨1, ![128]⟩

/-- The output entry at row `r`, column `j`: the two matrix products' entries added, then the two biases' sum. -/
def layerAt (nb x : SNodes.Idx → EReal) (wn wr : SWeight.Idx → EReal) (bn br : SBias.Idx → EReal)
    (r : Fin 100000) (j : Fin 128) : EReal :=
  (∑ k : Fin 128, nb (ix2 r k) * wn (ix2 k j) + ∑ k : Fin 128, x (ix2 r k) * wr (ix2 k j))
    + (bn (ix1 j) + br (ix1 j))

/-- The whole output array, index by index. -/
def layer (nb x : SNodes.Idx → EReal) (wn wr : SWeight.Idx → EReal) (bn br : SBias.Idx → EReal) :
    SNodes.Idx → EReal :=
  fun i => layerAt nb x wn wr bn br (i 0) (i 1)

theorem layer_ix2 (nb x : SNodes.Idx → EReal) (wn wr : SWeight.Idx → EReal) (bn br : SBias.Idx → EReal)
    (r : Fin 100000) (j : Fin 128) : layer nb x wn wr bn br (ix2 r j) = layerAt nb x wn wr bn br r j := rfl

/-- Four summands grouped as ((a + c) + b) + d are the same four grouped as (a + b) + (c + d): addition on the
    extended reals is commutative and associative (it is not cancellative, and is not needed to be). -/
theorem regroup (a b c d : EReal) : ((a + c) + b) + d = (a + b) + (c + d) := by
  rw [add_assoc (a + c) b d, add_add_add_comm a c b d]

end Cert.Layer

end
-- ==== Proof.KernelBody.lean ====
/-
  The kernel body's arithmetic, read at one entry of its output block.

  One grid point loads a 4000-row block `a` of the neighbour sums and the same rows `b` of the node features, the
  two whole (already transposed) weight matrices `wn`, `wr` and the two whole bias vectors `bn`, `br`. Over the
  extended reals the narrowing of the operands before each product is the identity, a product into a zero
  accumulator is the plain sum over the contracted axis, and the bias row is the sum of the two biases laid
  along every row. So the entry at row `p`, column `q` of what the point stores is

      (Σ_k a[p, k] · wn[k, q]  +  Σ_k b[p, k] · wr[k, q])  +  (bn[q] + br[q]).
-/
import proofs.«131370_j936302871047_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The left operand's entry that output entry `(p, q)` meets at contraction index `k` is `(p, k)`. -/
theorem lhs_at (p : Fin 4000) (q k : Fin 128) :
    dot_S4000x128_S128x128_S4000x128_1_0_0_1_n_n.lhsIdx (ix2 p q) ((contrEquiv1 dot_S4000x128_S128x128_S4000x128_1_0_0_1_n_n 128 rfl rfl).symm k) = ix2 p k := by
  have hk := contrEquiv1_symm_val dot_S4000x128_S128x128_S4000x128_1_0_0_1_n_n 128 rfl rfl k
  refine funext fun a => Fin.ext ?_
  match a with
  | ⟨0, _⟩ =>
    show (dot_S4000x128_S128x128_S4000x128_1_0_0_1_n_n.lhsIdx (ix2 p q) _ 0).val = p.val
    unfold DotDims.lhsIdx
    rw [dif_neg (show ¬(0 : Fin S4000x128.rank) ∈ dot_S4000x128_S128x128_S4000x128_1_0_0_1_n_n.lhsBatch by decide),
      dif_pos (show (0 : Fin S4000x128.rank) ∈ dot_S4000x128_S128x128_S4000x128_1_0_0_1_n_n.lhsNonContracting by decide)]
    rfl
  | ⟨1, _⟩ => exact (dot_S4000x128_S128x128_S4000x128_1_0_0_1_n_n.lhsIdx_val_of_single rfl _ _).trans hk

/-- The right operand's entry it meets there is `(k, q)`. -/
theorem rhs_at (p : Fin 4000) (q k : Fin 128) :
    dot_S4000x128_S128x128_S4000x128_1_0_0_1_n_n.rhsIdx (ix2 p q) ((contrEquiv1 dot_S4000x128_S128x128_S4000x128_1_0_0_1_n_n 128 rfl rfl).symm k) = ix2 k q := by
  have hk := contrEquiv1_symm_val dot_S4000x128_S128x128_S4000x128_1_0_0_1_n_n 128 rfl rfl k
  refine funext fun a => Fin.ext ?_
  match a with
  | ⟨0, _⟩ => exact (dot_S4000x128_S128x128_S4000x128_1_0_0_1_n_n.rhsIdx_val_of_single rfl _ _).trans hk
  | ⟨1, _⟩ =>
    show (dot_S4000x128_S128x128_S4000x128_1_0_0_1_n_n.rhsIdx (ix2 p q) _ 1).val = q.val
    unfold DotDims.rhsIdx
    rw [dif_neg (show ¬(1 : Fin S128x128.rank) ∈ dot_S4000x128_S128x128_S4000x128_1_0_0_1_n_n.rhsBatch by decide),
      dif_pos (show (1 : Fin S128x128.rank) ∈ dot_S4000x128_S128x128_S4000x128_1_0_0_1_n_n.rhsNonContracting by decide)]
    rfl

/-- A [4000, 128] by [128, 128] product into the zero accumulator, at entry `(p, q)`: the sum over the 128 contracted
    positions of the row's entry times the column's. -/
theorem product_apply (A : FVec Ideal S4000x128 .bf16) (B : FVec Ideal S128x128 .bf16) (p : Fin 4000) (q : Fin 128) :
    matmul dot_S4000x128_S128x128_S4000x128_1_0_0_1_n_n none A B (constant (F := Ideal) S4000x128 .f32 0x00000000#32) (ix2 p q)
      = ∑ k : Fin 128, A (ix2 p k) * B (ix2 k q) := by
  refine (Ideal.matmul_constant_zero_apply dot_S4000x128_S128x128_S4000x128_1_0_0_1_n_n none A B (ix2 p q)).trans ?_
  rw [← Equiv.sum_comp (contrEquiv1 dot_S4000x128_S128x128_S4000x128_1_0_0_1_n_n 128 rfl rfl).symm]
  refine Finset.sum_congr rfl fun k _ => ?_
  rw [lhs_at p q k, rhs_at p q k]

/-- What one grid point stores, at row `p` and column `q` of its block. -/
theorem stored_apply (a b : Vec Ideal S4000x128 .f32) (wn wr : Vec Ideal S128x128 .f32) (bn br : Vec Ideal S128 .f32)
    (p : Fin 4000) (q : Fin 128) :
    k0_pay1 (F := Ideal) a b wn wr bn br (ix2 p q)
      = (∑ k : Fin 128, a (ix2 p k) * wn (ix2 k q) + ∑ k : Fin 128, b (ix2 p k) * wr (ix2 k q))
        + (bn (ix1 q) + br (ix1 q)) := by
  unfold k0_pay1
  refine congrArg₂ (· + ·) (congrArg₂ (· + ·) ?_ ?_) ?_
  · refine (product_apply _ _ p q).trans ?_
    rw [shapeCast_self a, shapeCast_self wn]
    rfl
  · refine (product_apply _ _ p q).trans ?_
    rw [shapeCast_self wr]
    rfl
  · refine (broadcastTo_1b_ab_apply _ _ p q).trans ?_
    rw [shapeCast_self]
    exact shapeCast_a_1a_apply _ _ 0 q

end Cert.KernelIdeal.Body

end
-- ==== Proof.KernelArray.lean ====
/-
  From what each grid point writes to the whole output array.

  The region has 25 grid points. Point `t` reads rows 4000·t … 4000·t + 3999 of the neighbour sums and of the node
  features, the two transposed weight matrices and the two bias vectors whole, and writes rows
  4000·t … 4000·t + 3999 of the output. By the body's arithmetic (`Body.stored_apply`) the entry it writes at row
  `p`, column `q` of its block is the layer's entry at row 4000·t + p, column `q` of the arrays the region finds:
  what point `t` writes is block `t` of ONE whole-array function (`written_eq`). Every row `r` lies in the block of
  point r / 4000 (`cover`), so after the region the output array is that function (`array_eq`).
-/
import proofs.«131370_j936302871047_1_alg».proof.Proof.Gen.KernelIdeal.Value
import proofs.«131370_j936302871047_1_alg».proof.Proof.KernelBody
import proofs.«131370_j936302871047_1_alg».proof.Proof.LayerSpec

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.Layer
open Idealize.ShloMosaic.Pipeline (Dat)

variable (m : (ℓ : Loc nD τ sig) → Buf (Elt Ideal) ℓ) (ρ : Dev nD → PrngReg)

theorem off2 : (![0, 0] : Fin 2 → Nat) = fun _ => 0 := funext fun a => by fin_cases a <;> rfl
theorem off1 : (![0] : Fin 1 → Nat) = fun _ => 0 := funext fun a => by fin_cases a <;> rfl

/-- The output array after the region: the layer of the arrays the region finds — the neighbour sums and the two
    transposed weight matrices as the operations before the region left them, the node features and the biases
    as launched. -/
abbrev result (c : Dev nD) : S100000x128.Idx → Elt Ideal .f32 :=
  layer (V m c main_v13) (V m c main_arg0) (V m c main_v14) (V m c main_v15) (V m c main_arg3) (V m c main_arg5)

/-- The block every window has at grid point `t`: the two row-blocked inputs move with the output (block row `t`,
    block column 0), the four others stay at their one block. Decided over the 25 points. -/
theorem block_of_point : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Row `p` of the neighbour-sum block at point `t` is row (block row)·4000 + p of the neighbour sums. -/
theorem nb_rows (c : Dev nD) (t : Fin cfg0.N) (p : Fin 4000) (k : Fin 128) (r : Fin 100000)
    (hr : r.val = win0_6.index t (0 : Fin 2) * 4000 + p.val) :
    (iblk m c 0 t : Vec Ideal S4000x128 .f32) (ix2 p k) = (V m c main_v13 : S100000x128.Idx → Elt Ideal .f32) (ix2 r k) := by
  obtain ⟨e0, e1, -⟩ := block_of_point t
  unfold iblk
  rw [View.read_apply]
  show (V m c main_v13 : S100000x128.Idx → Elt Ideal .f32) _ = _
  refine congrArg (V m c main_v13 : S100000x128.Idx → Elt Ideal .f32) (funext fun a => Fin.ext ?_)
  match a with
  | ⟨0, _⟩ => show win0_0.index t (0 : Fin 2) * 4000 + 1 * p.val = r.val; omega
  | ⟨1, _⟩ => show win0_0.index t (1 : Fin 2) * 128 + 1 * k.val = k.val; omega

/-- The same rows of the node features. -/
theorem x_rows (c : Dev nD) (t : Fin cfg0.N) (p : Fin 4000) (k : Fin 128) (r : Fin 100000)
    (hr : r.val = win0_6.index t (0 : Fin 2) * 4000 + p.val) :
    (iblk m c 1 t : Vec Ideal S4000x128 .f32) (ix2 p k) = (V m c main_arg0 : S100000x128.Idx → Elt Ideal .f32) (ix2 r k) := by
  obtain ⟨-, -, e0, e1, -⟩ := block_of_point t
  unfold iblk
  rw [View.read_apply]
  show (V m c main_arg0 : S100000x128.Idx → Elt Ideal .f32) _ = _
  refine congrArg (V m c main_arg0 : S100000x128.Idx → Elt Ideal .f32) (funext fun a => Fin.ext ?_)
  match a with
  | ⟨0, _⟩ => show win0_1.index t (0 : Fin 2) * 4000 + 1 * p.val = r.val; omega
  | ⟨1, _⟩ => show win0_1.index t (1 : Fin 2) * 128 + 1 * k.val = k.val; omega

/-- The transposed neighbour weights' one block is the whole matrix. -/
theorem wn_whole (c : Dev nD) (t : Fin cfg0.N) :
    (iblk m c 2 t : Vec Ideal S128x128 .f32) = (V m c main_v14 : S128x128.Idx → Elt Ideal .f32) := by
  obtain ⟨-, -, -, -, e0, e1, -⟩ := block_of_point t
  unfold iblk
  funext y
  rw [View.read_apply]
  show (V m c main_v14 : S128x128.Idx → Elt Ideal .f32) _ = _
  refine congrArg (V m c main_v14 : S128x128.Idx → Elt Ideal .f32) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The neighbour bias's one block is the whole vector. -/
theorem bn_whole (c : Dev nD) (t : Fin cfg0.N) :
    (iblk m c 3 t : Vec Ideal S128 .f32) = (V m c main_arg3 : S128.Idx → Elt Ideal .f32) := by
  obtain ⟨-, -, -, -, -, -, e0, -⟩ := block_of_point t
  unfold iblk
  funext y
  rw [View.read_apply]
  show (V m c main_arg3 : S128.Idx → Elt Ideal .f32) _ = _
  refine congrArg (V m c main_arg3 : S128.Idx → Elt Ideal .f32) (funext fun a => Fin.ext ?_)
  match a with
  | ⟨0, _⟩ => show win0_3.index t (0 : Fin 1) * 128 + 1 * (y 0).val = (y 0).val; omega

/-- The transposed root weights' one block is the whole matrix. -/
theorem wr_whole (c : Dev nD) (t : Fin cfg0.N) :
    (iblk m c 4 t : Vec Ideal S128x128 .f32) = (V m c main_v15 : S128x128.Idx → Elt Ideal .f32) := by
  obtain ⟨-, -, -, -, -, -, -, e0, e1, -⟩ := block_of_point t
  unfold iblk
  funext y
  rw [View.read_apply]
  show (V m c main_v15 : S128x128.Idx → Elt Ideal .f32) _ = _
  refine congrArg (V m c main_v15 : S128x128.Idx → Elt Ideal .f32) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The root bias's one block is the whole vector. -/
theorem br_whole (c : Dev nD) (t : Fin cfg0.N) :
    (iblk m c 5 t : Vec Ideal S128 .f32) = (V m c main_arg5 : S128.Idx → Elt Ideal .f32) := by
  obtain ⟨-, -, -, -, -, -, -, -, -, e0, -⟩ := block_of_point t
  unfold iblk
  funext y
  rw [View.read_apply]
  show (V m c main_arg5 : S128.Idx → Elt Ideal .f32) _ = _
  refine congrArg (V m c main_arg5 : S128.Idx → Elt Ideal .f32) (funext fun a => Fin.ext ?_)
  match a with
  | ⟨0, _⟩ => show win0_5.index t (0 : Fin 1) * 128 + 1 * (y 0).val = (y 0).val; omega

/-- One stored entry, over plain arrays: if the two row blocks `a`, `b` are rows T·4000 … of `nb` and `x`, and the
    four other blocks are the whole arrays, then the entry stored at `y` is the layer's entry at the array index `i`
    that lies T·4000 rows below `y` in the same column. -/
theorem entry_eq (nb x : SNodes.Idx → EReal) (wn wr : SWeight.Idx → EReal) (bn br : SBias.Idx → EReal)
    (a b : Vec Ideal S4000x128 .f32) (w2 w4 : Vec Ideal S128x128 .f32) (w3 w5 : Vec Ideal S128 .f32) (T : Nat)
    (ha : ∀ (p : Fin 4000) (k : Fin 128) (r : Fin 100000), r.val = T * 4000 + p.val → a (ix2 p k) = nb (ix2 r k))
    (hb : ∀ (p : Fin 4000) (k : Fin 128) (r : Fin 100000), r.val = T * 4000 + p.val → b (ix2 p k) = x (ix2 r k))
    (h2 : w2 = wn) (h4 : w4 = wr) (h3 : w3 = bn) (h5 : w5 = br)
    (y : S4000x128.Idx) (i : S100000x128.Idx) (hi0 : (i 0).val = T * 4000 + (y 0).val) (hi1 : (i 1).val = (y 1).val) :
    k0_pay1 (F := Ideal) a b w2 w4 w3 w5 y = layer nb x wn wr bn br i := by
  subst h2 h4 h3 h5
  obtain ⟨p, q, rfl⟩ : ∃ (p : Fin 4000) (q : Fin 128), y = ix2 p q := ⟨y 0, y 1, eq_ix2 y⟩
  obtain ⟨r, j, rfl⟩ : ∃ (r : Fin 100000) (j : Fin 128), i = ix2 r j := ⟨i 0, i 1, eq_ix2 i⟩
  obtain rfl : j = q := Fin.ext hi1
  have ha' : ∀ k : Fin 128, a (ix2 p k) = nb (ix2 r k) := fun k => ha p k r hi0
  have hb' : ∀ k : Fin 128, b (ix2 p k) = x (ix2 r k) := fun k => hb p k r hi0
  rw [Body.stored_apply, layer_ix2]
  unfold layerAt
  simp only [ha', hb']

/-- WHAT POINT `t` WRITES BACK is block `t` of the layer of the arrays the region finds. -/
theorem written_eq (c : Dev nD) (t : Fin cfg0.N) :
    (dats m 0 c).flushed 6 t = ((cfg0.win 6).blk t).view.read (Elt Ideal) (result m c) := by
  rw [flushed6]
  unfold out0_6
  rw [View.canon_unit_zero off2]
  simp only [View.ld_unit_zero (S := S4000x128) off2, View.ld_unit_zero (S := S128x128) off2, View.ld_unit_zero (S := S128) off1]
  funext y
  rw [View.read_apply]
  refine entry_eq (V m c main_v13) (V m c main_arg0) (V m c main_v14) (V m c main_v15) (V m c main_arg3) (V m c main_arg5)
    (iblk m c 0 t) (iblk m c 1 t) (iblk m c 2 t) (iblk m c 4 t) (iblk m c 3 t) (iblk m c 5 t) (win0_6.index t (0 : Fin 2))
    (fun p k r hr => nb_rows m c t p k r hr) (fun p k r hr => x_rows m c t p k r hr)
    (wn_whole m c t) (wr_whole m c t) (bn_whole m c t) (br_whole m c t) y (((cfg0.win 6).blk t).view.emb y) ?_ ?_
  · show win0_6.index t (0 : Fin 2) * 4000 + 1 * (y 0).val = win0_6.index t (0 : Fin 2) * 4000 + (y 0).val
    omega
  · obtain ⟨-, -, -, -, -, -, -, -, -, -, -, e1⟩ := block_of_point t
    show win0_6.index t (1 : Fin 2) * 128 + 1 * (y 1).val = (y 1).val
    omega

/-- An index of the array is in point `t`'s block iff each coordinate is in the block's range on its axis. -/
theorem mem_block (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v16).slice (win0_6.rect t)).set ↔ _
  rw [View.set_slice_whole, Rect.mem_set_unit]
  exact Iff.rfl

/-- Every index of the output array is in the block of the point its row falls to: row `r` belongs to point r / 4000. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by omega⟩, rfl⟩
  obtain ⟨-, -, -, -, -, -, -, -, -, -, e0, e1⟩ := block_of_point t
  refine ⟨t, flush0_6 t, ?_⟩
  rw [mem_block]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 128 ≤ (i 1).val ∧ (i 1).val < win0_6.index t (1 : Fin 2) * 128 + 128; omega

/-- THE ARRAY after the region is the layer of the arrays the region finds. -/
theorem array_eq (c : Dev nD) : (dats m 0 c).arrAt 6 cfg0.N = result m c :=
  (dats m 0 c).arrAt_eq_of_cover 6 (result m c) (fun t _ => written_eq m c t) cover

/-- The kernel's run, read: the result array at the layer of what the region finds, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (array_eq m c), (h c).2⟩) (run_blocks m ρ)

end Cert.KernelIdeal.Whole

end
-- ==== Proof.RefLayer.lean ====
/-
  The reference computes the layer.

  Its last stage adds, index by index, ((Σ_k nb[r, k] · wnT[k, j] + bn[j]) + Σ_k x[r, k] · wrT[k, j]) + br[j],
  where `nb` is its neighbour-sum stage, `wnT`, `wrT` its two transposed-weight stages, and each bias reaches
  entry `(r, j)` through two broadcasts that read position `j`. That is the layer's four summands in another
  grouping (`Cert.Layer.regroup`). The neighbour-sum and transposed-weight stages are kept whole: nothing
  here depends on what they hold.
-/
import proofs.«131370_j936302871047_1_alg».proof.Proof.Gen.ReferenceIdeal.Read
import proofs.«131370_j936302871047_1_alg».proof.Proof.LayerSpec

noncomputable section

open scoped BigOperators

namespace Cert.ReferenceIdeal.RefLayer

open Cert.ReferenceIdeal Cert.ReferenceIdeal.Read Idealize.ShloMosaic Idealize.ShloMosaic.ValueIdx Cert.Layer

/-- The rows and columns the two products and the two bias broadcasts read for output entry `(r, j)`. -/
theorem lhs_nb (r : Fin 100000) (j k : Fin 128) : lidx_main_v15 (ix2 r j) k = ix2 r k :=
  funext fun a => Fin.ext (by match a with | ⟨0, _⟩ => rfl | ⟨1, _⟩ => rfl)
theorem rhs_nb (r : Fin 100000) (j k : Fin 128) : ridx_main_v15 (ix2 r j) k = ix2 k j :=
  funext fun a => Fin.ext (by match a with | ⟨0, _⟩ => rfl | ⟨1, _⟩ => rfl)
theorem lhs_x (r : Fin 100000) (j k : Fin 128) : lidx_main_v20 (ix2 r j) k = ix2 r k :=
  funext fun a => Fin.ext (by match a with | ⟨0, _⟩ => rfl | ⟨1, _⟩ => rfl)
theorem rhs_x (r : Fin 100000) (j k : Fin 128) : ridx_main_v20 (ix2 r j) k = ix2 k j :=
  funext fun a => Fin.ext (by match a with | ⟨0, _⟩ => rfl | ⟨1, _⟩ => rfl)
theorem at_bn (r : Fin 100000) (j : Fin 128) : idx_main_v16 (idx_main_v17 (ix2 r j)) = ix1 j :=
  funext fun a => Fin.ext (by match a with | ⟨0, _⟩ => rfl)
theorem at_br (r : Fin 100000) (j : Fin 128) : idx_main_v22 (idx_main_v23 (ix2 r j)) = ix1 j :=
  funext fun a => Fin.ext (by match a with | ⟨0, _⟩ => rfl)

/-- The reference's result stage is the layer of its neighbour-sum stage, the node features, its two
    transposed-weight stages and the two biases. -/
theorem result_eq (x0 : (⟨S100000x128, .f32⟩ : BufTy).Contents (Elt Ideal)) (x1 : (⟨S2x625000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v24 (F := Ideal) x0 x1 x2 x3 x4 x5
      = layer (val_main_v13 (F := Ideal) x0 x1) x0 (val_main_v14 (F := Ideal) x2) (val_main_v19 (F := Ideal) x4) x3 x5 := by
  funext i
  obtain ⟨r, j, rfl⟩ : ∃ (r : Fin 100000) (j : Fin 128), i = ix2 r j := ⟨i 0, i 1, eq_ix2 i⟩
  rw [layer_ix2, val_main_v24_apply, val_main_v21_apply, val_main_v18_apply, val_main_v15_apply, val_main_v20_apply,
    val_main_v17_apply, val_main_v16_apply, val_main_v23_apply, val_main_v22_apply]
  simp only [lhs_nb, rhs_nb, lhs_x, rhs_x, at_bn, at_br, Ideal.addf_def]
  exact regroup _ _ _ _

end Cert.ReferenceIdeal.RefLayer

end
-- ==== Proof.RegionEntry.lean ====
/-
  What the region finds.

  Before the region the kernel's program forms the neighbour sums (a gather of the source nodes' rows followed by
  a scatter-add into the target nodes' rows, from the edge list) and transposes the two weight matrices. The
  reference program starts with the very same operations on the same arguments. So the three arrays the region
  finds are the reference's corresponding stages of the launch contents; neither the gather, the scatter-add nor
  the transposes is ever opened.
-/
import proofs.«131370_j936302871047_1_alg».proof.Proof.Gen.KernelIdeal.Frame
import proofs.«131370_j936302871047_1_alg».proof.Proof.Gen.ReferenceIdeal.Read
import Idealize.ShloMosaic.Lib.StableHlo.Run

noncomputable section

namespace Cert.KernelIdeal.Found

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The neighbour sums the region finds are the reference's neighbour-sum stage of the node features and the edge list. -/
theorem nb_found (c : Dev nD) :
    (V m c main_v13 : S100000x128.Idx → Elt Ideal .f32)
      = Cert.ReferenceIdeal.Read.val_main_v13 (F := Ideal) (m ((c : Thread nD τ).loc main_arg0)) (m ((c : Thread nD τ).loc main_arg1)) := by
  dsimp only [V, hostOps0]
  after_results
  rfl

/-- The transposed neighbour weights the region finds are the reference's transpose stage of the neighbour weights. -/
theorem wn_found (c : Dev nD) :
    (V m c main_v14 : S128x128.Idx → Elt Ideal .f32)
      = Cert.ReferenceIdeal.Read.val_main_v14 (F := Ideal) (m ((c : Thread nD τ).loc main_arg2)) := by
  dsimp only [V, hostOps0]
  after_results
  rfl

/-- The transposed root weights the region finds are the reference's transpose stage of the root weights. -/
theorem wr_found (c : Dev nD) :
    (V m c main_v15 : S128x128.Idx → Elt Ideal .f32)
      = Cert.ReferenceIdeal.Read.val_main_v19 (F := Ideal) (m ((c : Thread nD τ).loc main_arg4)) := by
  dsimp only [V, hostOps0]
  after_results
  rfl

end Cert.KernelIdeal.Found

end
-- ==== Proof.lean ====
/-
  A graph layer — out = (neighbour sums) · W_neighᵀ + b_neigh + x · W_rootᵀ + b_root over 100000 nodes with 128
  features — computed by a kernel that takes 4000 rows per grid point against the plain array expression.

  Both programs first form the neighbour sums (gather the source rows, scatter-add them into the target rows) and
  transpose the two weight matrices, by the same operations on the same arguments. From there the kernel computes,
  for each block of 4000 rows, (nb · wnT + x · wrT) + (b_neigh + b_root) laid along the rows, and the reference
  ((nb · wnT + b_neigh) + x · wrT) + b_root on the whole arrays. Over the extended reals a change of float format is
  the identity and a matrix product is the plain sum of products, so entry (r, j) is on both sides the four summands
  Σ_k nb[r,k]·wnT[k,j], Σ_k x[r,k]·wrT[k,j], b_neigh[j], b_root[j], grouped in two ways: equal by commutativity and
  associativity of addition, with nothing assumed finite.

  `LayerSpec` states the layer as one function of whole arrays and proves the regrouping; `KernelBody` reads the
  kernel body's arithmetic at an entry; `KernelArray` passes from the 25 written blocks to the whole output array;
  `RefLayer` shows the reference's last stage is the layer; `RegionEntry` identifies the arrays the kernel's region
  finds with the reference's stages. Here the two runs are set side by side.
-/
import proofs.«131370_j936302871047_1_alg».proof.Defs
import proofs.«131370_j936302871047_1_alg».proof.Proof.Gen.Kernel
import proofs.«131370_j936302871047_1_alg».proof.Proof.Gen.Kernel.Frame
import proofs.«131370_j936302871047_1_alg».proof.Proof.Gen.KernelIdeal
import proofs.«131370_j936302871047_1_alg».proof.Proof.Gen.KernelIdeal.Frame
import proofs.«131370_j936302871047_1_alg».proof.Proof.Gen.KernelIdeal.Value
import proofs.«131370_j936302871047_1_alg».proof.Proof.Gen.ReferenceIdeal
import proofs.«131370_j936302871047_1_alg».proof.Proof.Gen.ReferenceIdeal.Run
import proofs.«131370_j936302871047_1_alg».proof.Proof.Gen.ReferenceIdeal.Read
import proofs.«131370_j936302871047_1_alg».proof.Proof.Gen.Pre_finite_inputs
import proofs.«131370_j936302871047_1_alg».proof.Proof.LayerSpec
import proofs.«131370_j936302871047_1_alg».proof.Proof.KernelArray
import proofs.«131370_j936302871047_1_alg».proof.Proof.RefLayer
import proofs.«131370_j936302871047_1_alg».proof.Proof.RegionEntry
import Idealize.ShloMosaic.Adequacy
import Idealize.ShloMosaic.Init

noncomputable section

namespace Cert.Proof

open Idealize.ShloMosaic Idealize.ShloMosaic.TcCoe Idealize.SL.Sem

/-- The three programs run and leave their arguments as launched. -/
theorem frame_kernel : Cert.frame_Kernel := fun m ρ _ => Cert.Kernel.Gen.frame m ρ
theorem frame_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten to idealize it: there is nothing to preserve. -/
theorem preserves : Cert.preserves_Kernel_KernelIdeal := trivial

/-- The kernel's output array, in terms of the launch contents alone: the layer of the reference's neighbour-sum and
    transposed-weight stages of the arguments, the node features and the two biases. -/
theorem kernel_result (m : (ℓ : Loc Cert.KernelIdeal.nD Cert.KernelIdeal.τ Cert.KernelIdeal.sig) → Buf (Elt Ideal) ℓ)
    (c : Dev Cert.KernelIdeal.nD) :
    Cert.KernelIdeal.Whole.result m c
      = Cert.Layer.layer
          (Cert.ReferenceIdeal.Read.val_main_v13 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1)))
          (m ((c.tc : Thread Cert.KernelIdeal.nD Cert.KernelIdeal.τ).loc Cert.KernelIdeal.main_arg0))
          (Cert.ReferenceIdeal.Read.val_main_v14 (F := Ideal)
            (m ((c.tc : Thread Cert.KernelIdeal.nD Cert.KernelIdeal.τ).loc Cert.KernelIdeal.main_arg2)))
          (Cert.ReferenceIdeal.Read.val_main_v19 (F := Ideal)
            (m ((c.tc : Thread Cert.KernelIdeal.nD Cert.KernelIdeal.τ).loc Cert.KernelIdeal.main_arg4)))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg5)) := by
  show Cert.Layer.layer _ _ _ _ _ _ = _
  rw [Cert.KernelIdeal.Found.nb_found m c, Cert.KernelIdeal.Found.wn_found m c, Cert.KernelIdeal.Found.wr_found m c,
    Cert.KernelIdeal.Gen.V_main_arg0 m c, Cert.KernelIdeal.Gen.V_main_arg3 m c, Cert.KernelIdeal.Gen.V_main_arg5 m c]

/-- From memories that agree on the arguments both idealized programs end with the same result array: the kernel's
    is the layer of what its region finds (`Whole.run`), the reference's last stage is the layer of its own stages
    (`RefLayer.result_eq`), and the two lists of arrays are the same (`kernel_result`). -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v24_eq, Cert.ReferenceIdeal.RefLayer.result_eq, a0, a1, a2, a3, a4, a5]
  exact (kernel_result m c).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
